-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S32x4 : S_.BroadcastsInDim S32x4 (![] : Fin 0 → Fin S32x4.rank)
  reducesTo_S32x4_S_d0_1 : S32x4.ReducesTo [0, 1] S_

variable [Facts]

def fn {F : FTy → Type} [FloatOps F] (main_arg0 : IVec S2000000 32) (main_arg1 : FVec F S2000000x3 .f32) (main_arg2 : FVec F S100000x4 .f32) (main_arg3 : FVec F S32x4 .f32) : IVec S_ 1 :=
  let main_v0 : FVec F S2000000x3 .f32 := Host.absf main_arg1
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S100000x4 .f32 := Host.absf main_arg2
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S32x4 .f32 := Host.absf main_arg3
  let main_cst_2 : FVec F S_ .f32 := constant S_ .f32 0x7F800000#32
  let main_v10 : FVec F S32x4 .f32 := broadcastInDim S32x4 ![] bcast_S_S32x4 main_cst_2
  let main_v11 : IVec S32x4 1 := cmpf .olt main_v9 main_v10
  let main_c_3 : IVec S_ 1 := constantI S_ 1 1#1
  let main_v12 : IVec S_ 1 := (fun x v => Host.reduce IntOp.andi x v reducesTo_S32x4_S_d0_1 h_S_) main_v11 main_c_3
  let main_v13 : IVec S_ 1 := andi main_v8 main_v12
  main_v13
-- ==== Kernel.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S4 : Shape := ⟨1, ![4]⟩
abbrev S_ : Shape := ⟨0, ![]⟩
abbrev S4x1 : Shape := ⟨2, ![4, 1]⟩
abbrev S4x32 : Shape := ⟨2, ![4, 32]⟩
abbrev S100000x32 : Shape := ⟨2, ![100000, 32]⟩
abbrev S5000x4 : Shape := ⟨2, ![5000, 4]⟩
abbrev S5000x32 : Shape := ⟨2, ![5000, 32]⟩
abbrev S2000000x1 : Shape := ⟨2, ![2000000, 1]⟩
abbrev S2000000x32 : Shape := ⟨2, ![2000000, 32]⟩

abbrev nBuf : Space → Nat
  | .hbm => 23
  | .vmem => 5
  | .smem => 0
  | _ => 0

abbrev bufTy : (tb : Table) → Fin (tcTables nBuf tb) → BufTy
  | .hbm, ⟨0, _⟩ => ⟨S2000000, .i32⟩
  | .hbm, ⟨1, _⟩ => ⟨S2000000x3, .f32⟩
  | .hbm, ⟨2, _⟩ => ⟨S100000x4, .f32⟩
  | .hbm, ⟨3, _⟩ => ⟨S32x4, .f32⟩
  | .hbm, ⟨4, _⟩ => ⟨S4, .i32⟩
  | .hbm, ⟨5, _⟩ => ⟨S4, .i1⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4, .i32⟩
  | .hbm, ⟨10, _⟩ => ⟨S4x1, .i32⟩
  | .hbm, ⟨11, _⟩ => ⟨S32x4, .f32⟩
  | .hbm, ⟨12, _⟩ => ⟨S4x32, .f32⟩
  | .hbm, ⟨13, _⟩ => ⟨S100000x32, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x32, .f32⟩
  | .local _ .vmem, ⟨0, _⟩ => ⟨S5000x4, .f32⟩
  | .local _ .vmem, ⟨1, _⟩ => ⟨S5000x4, .f32⟩
  | .local _ .vmem, ⟨2, _⟩ => ⟨S4x32, .f32⟩
  | .local _ .vmem, ⟨3, _⟩ => ⟨S5000x32, .f32⟩
  | .local _ .vmem, ⟨4, _⟩ => ⟨S5000x32, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4 : S_.BroadcastsInDim S4 (![] : Fin 0 → Fin S4.rank)
  bcast_S4_S4x1_0 : S4.BroadcastsInDim S4x1 (![0] : Fin 1 → Fin S4x1.rank)
  transposes_S32x4_S4x32_1_0 : S32x4.Transposes [1, 0] S4x32
  inb_S5000x4_S5000x4_0_0 : ∀ a, (![0, 0] : Fin 2 → Nat) a + S5000x4.size a ≤ S5000x4.size a
  h_S5000x4 : 0 < S5000x4.numel
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S5000x32_S5000x32_0_0 : ∀ a, (![0, 0] : Fin 2 → Nat) a + S5000x32.size a ≤ S5000x32.size a
  h_S5000x32 : 0 < S5000x32.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  gather_S32x4_S4x1_S32x4_0_1_n_n_1_1_321_wf : GatherDims.WF S32x4 S4x1 S32x4 [0] [1] [] [1] [] 1 ![32, 1]
  dot_S5000x4_S4x32_S5000x32_1_0_0_1_n_n_wf : DotDims.WF S5000x4 S4x32 S5000x32 [1] [0] [0] [1] [] []
  gather_S100000x32_S2000000x1_S2000000x32_1_0_n_n_0_1_132_wf : GatherDims.WF S100000x32 S2000000x1 S2000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)

variable [Facts₀]

def gather_S32x4_S4x1_S32x4_0_1_n_n_1_1_321 : GatherDims S32x4 S4x1 S32x4 where
  offsetDims := [0]
  collapsedSliceDims := [1]
  operandBatchingDims := []
  startIndicesBatchingDims := []
  startIndexMap := [1]
  indexVectorDim := 1
  sliceSizes := ![32, 1]
  wf := gather_S32x4_S4x1_S32x4_0_1_n_n_1_1_321_wf
def dot_S5000x4_S4x32_S5000x32_1_0_0_1_n_n : DotDims S5000x4 S4x32 S5000x32 where
  lhsContracting := [1]
  rhsContracting := [0]
  lhsNonContracting := [0]
  rhsNonContracting := [1]
  lhsBatch := []
  rhsBatch := []
  wf := dot_S5000x4_S4x32_S5000x32_1_0_0_1_n_n_wf
def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf

abbrev win0_0 : Pipeline.Window sig grid0 :=
  Pipeline.Window.ofSpec (Memref.whole main_arg2) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2000000 : Shape := ⟨1, ![2000000]⟩
abbrev S2000000x3 : Shape := ⟨2, ![2000000, 3]⟩
abbrev S100000x4 : Shape := ⟨2, ![100000, 4]⟩
abbrev S32x4 : Shape := ⟨2, ![32, 4]⟩
abbrev S4 : Shape := ⟨1, ![4]⟩
abbrev S_ : Shape := ⟨0, ![]⟩
abbrev S2000000x1 : Shape := ⟨2, ![2000000, 1]⟩
abbrev S2000000x4 : Shape := ⟨2, ![2000000, 4]⟩
abbrev S4x1 : Shape := ⟨2, ![4, 1]⟩
abbrev S2000000x32 : Shape := ⟨2, ![2000000, 32]⟩

abbrev nBuf : Space → Nat
  | .hbm => 26
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000x3, .f32⟩
  | .hbm, ⟨2, _⟩ => ⟨S100000x4, .f32⟩
  | .hbm, ⟨3, _⟩ => ⟨S32x4, .f32⟩
  | .hbm, ⟨4, _⟩ => ⟨S4, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x4, .f32⟩
  | .hbm, ⟨14, _⟩ => ⟨S2000000x3, .f32⟩
  | .hbm, ⟨15, _⟩ => ⟨S2000000, .f32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S2000000x4, .f32⟩
  | .hbm, ⟨25, _⟩ => ⟨S2000000x32, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2000000x4_S2000000x3_0_1 : S2000000x4.Slices ![0, 1] S2000000x3
  bcast_S_S4 : S_.BroadcastsInDim S4 (![] : Fin 0 → Fin S4.rank)
  bcast_S4_S4x1_0 : S4.BroadcastsInDim S4x1 (![0] : Fin 1 → Fin S4x1.rank)
  gather_S100000x4_S2000000x1_S2000000x4_1_0_n_n_0_1_14_wf : GatherDims.WF S100000x4 S2000000x1 S2000000x4 [1] [0] [] [0] [] 1 ![1, 4]
  dot_S2000000x3_S2000000x3_S2000000_1_1_n_n_0_0_wf : DotDims.WF S2000000x3 S2000000x3 S2000000 [1] [1] [] [] [0] [0]
  gather_S2000000x4_S4x1_S2000000x4_0_1_n_n_1_1_20000001_wf : GatherDims.WF S2000000x4 S4x1 S2000000x4 [0] [1] [] [1] [] 1 ![2000000, 1]
  dot_S2000000x4_S32x4_S2000000x32_1_1_0_0_n_n_wf : DotDims.WF S2000000x4 S32x4 S2000000x32 [1] [1] [0] [0] [] []

variable [Facts₀]

def gather_S100000x4_S2000000x1_S2000000x4_1_0_n_n_0_1_14 : GatherDims S100000x4 S2000000x1 S2000000x4 where
  offsetDims := [1]
  collapsedSliceDims := [0]
  operandBatchingDims := []
  startIndicesBatchingDims := []
  startIndexMap := [0]
  indexVectorDim := 1
  sliceSizes := ![1, 4]
  wf := gather_S100000x4_S2000000x1_S2000000x4_1_0_n_n_0_1_14_wf
def dot_S2000000x3_S2000000x3_S2000000_1_1_n_n_0_0 : DotDims S2000000x3 S2000000x3 S2000000 where
  lhsContracting := [1]
  rhsContracting := [1]
  lhsNonContracting := []
  rhsNonContracting := []
  lhsBatch := [0]
  rhsBatch := [0]
  wf := dot_S2000000x3_S2000000x3_S2000000_1_1_n_n_0_0_wf
def gather_S2000000x4_S4x1_S2000000x4_0_1_n_n_1_1_20000001 : GatherDims S2000000x4 S4x1 S2000000x4 where
  offsetDims := [0]
  collapsedSliceDims := [1]
  operandBatchingDims := []
  startIndicesBatchingDims := []
  startIndexMap := [1]
  indexVectorDim := 1
  sliceSizes := ![2000000, 1]
  wf := gather_S2000000x4_S4x1_S2000000x4_0_1_n_n_1_1_20000001_wf
def dot_S2000000x4_S32x4_S2000000x32_1_1_0_0_n_n : DotDims S2000000x4 S32x4 S2000000x32 where
  lhsContracting := [1]
  rhsContracting := [1]
  lhsNonContracting := [0]
  rhsNonContracting := [0]
  lhsBatch := []
  rhsBatch := []
  wf := dot_S2000000x4_S32x4_S2000000x32_1_1_0_0_n_n_wf

class Facts : Prop extends Facts₀ where

variable [Facts]
-- ==== Proof.Spec.lean ====
/-
  A table projected once, then gathered — against a gather followed by a projection per row.

  field : [100000, 4] and matrix : [32, 4] are extended-real arrays, batch : [2000000] an array of 32-bit integers
  naming rows of field. Both programs produce the array [2000000, 32] whose entry (n, p) is

      Σ_{k < 4}  field[row n, σ k] · matrix[p, k]           with σ = (0, 3, 1, 2),

  where row n is batch[n], a negative value shifted up by 100000, read as a signed integer and clamped into
  [0, 99999]. One program gathers the four-wide rows of field first, permutes their columns by σ and contracts
  them with matrix; the other permutes the columns of matrix by σ⁻¹ = (0, 2, 3, 1), contracts every row of
  field with it once, and gathers the 32-wide rows of that table. The two agree because a finite sum over k < 4
  may be re-indexed by a permutation: Σ_k a k · b (σ⁻¹ k) = Σ_k a (σ k) · b k, a fact of commutative addition that
  holds on the extended reals with no finiteness assumption.

  This file holds what is common to both sides and mentions neither program: a row gather and a column gather of a
  matrix read at an index, the two column tables, the re-indexing law, and the result as one function.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.TableProj

open Idealize.ShloMosaic Idealize.ShloMosaic.ValueIdx

/-! ## Gathers of a matrix read at an index -/

section Gathers
variable {α : Type}

/-- Dimension numbers of a ROW gather: operand [N, C], start indices [R, 1], result [R, C]; axis 0 of the
    operand is collapsed and addressed by the start index, axis 1 is copied whole. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (n, p) of a row gather is the operand's entry p in the row that start index n names, that index
    read signed and clamped into [0, N - 1]. -/
theorem rowGather_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (n : Fin R) (p : Fin C) :
    Host.gather (rowDims N C R wf) x idx (ix2 n p)
      = x (ix2 ⟨min (idx (ix2 n 0)).toInt.toNat (N - 1), by omega⟩ p) := by
  unfold Host.gather
  congr 1
  funext a
  refine Fin.ext ?_
  have h10 : ¬ (1 : Fin 2) = 0 := by decide
  match a with
  | ⟨0, _⟩ =>
    show (rowDims N C R wf).start (ix2 n p) idx 0 + (rowDims N C R wf).batchCoord (ix2 n p) 0
      + (rowDims N C R wf).offCoord (ix2 n p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 n p) ⟨List.idxOf (0 : Fin 2) (rowDims N C R wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi]
    rfl
  | ⟨1, _⟩ =>
    show (rowDims N C R wf).start (ix2 n p) idx 1 + (rowDims N C R wf).batchCoord (ix2 n p) 1
      + (rowDims N C R wf).offCoord (ix2 n p) 1 = p.val
    rw [GatherDims.batchCoord_eq_zero _ _ _ List.not_mem_nil]
    have hk : (1 : Fin 2) ∈ (rowDims N C R wf).sKept :=
      (GatherDims.mem_sKept _ _).mpr ⟨fun h => h10 (List.mem_singleton.mp h), List.not_mem_nil⟩
    unfold GatherDims.start GatherDims.offCoord
    rw [dif_neg (fun h : (1 : Fin 2) ∈ (rowDims N C R wf).startIndexMap => h10 (List.mem_singleton.mp h)), dif_pos hk]
    simp only [Nat.zero_add, Nat.add_zero]
    rfl

/-- Dimension numbers of a COLUMN gather: operand [A, K], start indices [K', 1], result [A, K']; axis 1 of
    the operand is collapsed and addressed by the start index, axis 0 is copied whole. -/
abbrev colDims (A K K' : Nat)
    (wf : GatherDims.WF ⟨2, ![A, K]⟩ ⟨2, ![K', 1]⟩ ⟨2, ![A, K']⟩ [0] [1] [] [1] [] 1 ![A, 1]) :
    GatherDims ⟨2, ![A, K]⟩ ⟨2, ![K', 1]⟩ ⟨2, ![A, K']⟩ where
  offsetDims := [0]
  collapsedSliceDims := [1]
  operandBatchingDims := []
  startIndicesBatchingDims := []
  startIndexMap := [1]
  indexVectorDim := 1
  sliceSizes := ![A, 1]
  wf := wf

/-- Entry (a, k) of a column gather is the operand's entry of row a in the column that start index k names,
    that index read signed and clamped into [0, K - 1]. -/
theorem colGather_apply {A K K' w : Nat} (hK : 0 < K)
    (wf : GatherDims.WF ⟨2, ![A, K]⟩ ⟨2, ![K', 1]⟩ ⟨2, ![A, K']⟩ [0] [1] [] [1] [] 1 ![A, 1])
    (x : (⟨2, ![A, K]⟩ : Shape).Idx → α) (idx : IVec ⟨2, ![K', 1]⟩ w) (a : Fin A) (k : Fin K') :
    Host.gather (colDims A K K' wf) x idx (ix2 a k)
      = x (ix2 a ⟨min (idx (ix2 k 0)).toInt.toNat (K - 1), by omega⟩) := by
  unfold Host.gather
  congr 1
  funext b
  refine Fin.ext ?_
  have h01 : ¬ (0 : Fin 2) = 1 := by decide
  match b with
  | ⟨0, _⟩ =>
    show (colDims A K K' wf).start (ix2 a k) idx 0 + (colDims A K K' wf).batchCoord (ix2 a k) 0
      + (colDims A K K' wf).offCoord (ix2 a k) 0 = a.val
    rw [GatherDims.batchCoord_eq_zero _ _ _ List.not_mem_nil]
    have hk : (0 : Fin 2) ∈ (colDims A K K' wf).sKept :=
      (GatherDims.mem_sKept _ _).mpr ⟨fun h => h01 (List.mem_singleton.mp h), List.not_mem_nil⟩
    unfold GatherDims.start GatherDims.offCoord
    rw [dif_neg (fun h : (0 : Fin 2) ∈ (colDims A K K' wf).startIndexMap => h01 (List.mem_singleton.mp h)), dif_pos hk]
    simp only [Nat.zero_add, Nat.add_zero]
    rfl
  | ⟨1, _⟩ =>
    show (colDims A K K' wf).start (ix2 a k) idx 1 + (colDims A K K' wf).batchCoord (ix2 a k) 1
      + (colDims A K K' wf).offCoord (ix2 a k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims A K K' wf).startIndexMap from List.mem_singleton.mpr rfl)]
    have hsi : (colDims A K K' wf).siIdx (ix2 a k) ⟨List.idxOf (1 : Fin 2) (colDims A K K' wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    rfl

end Gathers

/-! ## The two column tables and the re-indexing law -/

/-- The reference reads column σ k of a gathered row of field against column k of matrix. -/
def colR : Fin 4 → Fin 4 := ![0, 3, 1, 2]
/-- The kernel reads column k of a row of field against column σ⁻¹ k of matrix. -/
def colK : Fin 4 → Fin 4 := ![0, 2, 3, 1]

/-- Re-indexing a four-term sum by σ: pairing a k with b (σ⁻¹ k) is pairing a (σ k) with b k. Only the
    commutativity and associativity of addition are used, so it holds at infinite values too. -/
theorem sum_reindex (a b : Fin 4 → EReal) : ∑ k : Fin 4, a k * b (colK k) = ∑ k : Fin 4, a (colR k) * b k := by
  simp only [Fin.sum_univ_four]
  show a 0 * b 0 + a 1 * b 2 + a 2 * b 3 + a 3 * b 1 = a 0 * b 0 + a 3 * b 1 + a 1 * b 2 + a 2 * b 3
  ac_rfl

/-! ## The result as one function -/

/-- The start indices both programs gather rows with: batch, a negative entry shifted up by the table's 100000
    rows, as a column [2000000, 1]. -/
def startIdx (batch : IVec ⟨1, ![2000000]⟩ 32) : IVec ⟨2, ![2000000, 1]⟩ 32 :=
  broadcastInDim ⟨2, ![2000000, 1]⟩ ![0] (by decide)
    (select (cmpi .slt batch (broadcastInDim ⟨1, ![2000000]⟩ ![] (by decide) (constantI ⟨0, ![]⟩ 32 0#32)))
      (addi batch (broadcastInDim ⟨1, ![2000000]⟩ ![] (by decide) (constantI ⟨0, ![]⟩ 32 100000#32))) batch)

/-- The row of the 100000-row table that start index n names: read signed, clamped into the table. -/
def row (idx : IVec ⟨2, ![2000000, 1]⟩ 32) (n : Fin 2000000) : Fin 100000 :=
  ⟨min (idx (ix2 n 0)).toInt.toNat (100000 - 1), by omega⟩

/-- Entry (n, p) of the result. -/
def projAt (idx : IVec ⟨2, ![2000000, 1]⟩ 32) (field : (⟨2, ![100000, 4]⟩ : Shape).Idx → EReal)
    (matrix : (⟨2, ![32, 4]⟩ : Shape).Idx → EReal) (n : Fin 2000000) (p : Fin 32) : EReal :=
  ∑ k : Fin 4, field (ix2 (row idx n) (colR k)) * matrix (ix2 p k)

/-- The result array. -/
def proj (idx : IVec ⟨2, ![2000000, 1]⟩ 32) (field : (⟨2, ![100000, 4]⟩ : Shape).Idx → EReal)
    (matrix : (⟨2, ![32, 4]⟩ : Shape).Idx → EReal) : (⟨2, ![2000000, 32]⟩ : Shape).Idx → EReal :=
  fun j => projAt idx field matrix (j 0) (j 1)

theorem proj_apply (idx : IVec ⟨2, ![2000000, 1]⟩ 32) (field : (⟨2, ![100000, 4]⟩ : Shape).Idx → EReal)
    (matrix : (⟨2, ![32, 4]⟩ : Shape).Idx → EReal) (n : Fin 2000000) (p : Fin 32) :
    proj idx field matrix (ix2 n p) = projAt idx field matrix n p := rfl

end Cert.TableProj

end
-- ==== Proof.KValue.lean ====
/-
  The kernel's result, entry by entry.

  Before the region the host permutes the columns of matrix by (0, 2, 3, 1) and transposes: the [4, 32] array the
  region finds holds matrix[p, σ⁻¹ k] at (k, p). The region has 20 grid points; point t multiplies rows
  5000 t .. 5000 t + 4999 of field by that [4, 32] array and writes the [5000, 32] product into the same rows of
  the table. The blocks tile the table, so after the region the table's entry (g, p) is
  Σ_{k < 4} field[g, k] · matrix[p, σ⁻¹ k]. After the region the host gathers the table's rows by the start
  indices. Re-indexing the four-term sum by σ turns the gathered entry into the specification's.
-/
import proofs.«136675_j6373731467891_2_alg».proof.Proof.Gen.KernelIdeal.Frame
import proofs.«136675_j6373731467891_2_alg».proof.Proof.Spec
import Idealize.ShloMosaic.Lib.StableHlo.Run
import Idealize.ShloMosaic.Lib.Pipeline.Value

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem Idealize.ShloMosaic.StableHlo Cert.TableProj
open Idealize.ShloMosaic.Pipeline (Dat Cfg Window)

/-! ## The body's product at an entry -/

abbrev dotK : DotDims S5000x4 S4x32 S5000x32 := dot_S5000x4_S4x32_S5000x32_1_0_0_1_n_n

theorem lhs_0 (i : S5000x32.Idx) (q : dotK.contr.Idx) : (dotK.lhsIdx i q 0).val = (i 0).val := by
  unfold DotDims.lhsIdx
  rw [dif_neg (show ¬(0 : Fin S5000x4.rank) ∈ dotK.lhsBatch by decide),
    dif_pos (show (0 : Fin S5000x4.rank) ∈ dotK.lhsNonContracting by decide)]
  rfl
theorem lhs_1 (i : S5000x32.Idx) (q : dotK.contr.Idx) : (dotK.lhsIdx i q 1).val = (q ⟨0, by decide⟩).val :=
  dotK.lhsIdx_val_of_single rfl i q
theorem rhs_0 (i : S5000x32.Idx) (q : dotK.contr.Idx) : (dotK.rhsIdx i q 0).val = (q ⟨0, by decide⟩).val :=
  dotK.rhsIdx_val_of_single rfl i q
theorem rhs_1 (i : S5000x32.Idx) (q : dotK.contr.Idx) : (dotK.rhsIdx i q 1).val = (i 1).val := by
  unfold DotDims.rhsIdx
  rw [dif_neg (show ¬(1 : Fin S4x32.rank) ∈ dotK.rhsBatch by decide),
    dif_pos (show (1 : Fin S4x32.rank) ∈ dotK.rhsNonContracting by decide)]
  rfl

/-- Entry (r, p) of the block the body stores: row r of its [5000, 4] block against column p of its [4, 32] block,
    summed over the four columns (the product starts from a zero accumulator). -/
theorem pay_apply (x0 : Vec Ideal S5000x4 .f32) (x1 : Vec Ideal S4x32 .f32) (r : Fin 5000) (p : Fin 32) :
    k0_pay1 x0 x1 (ix2 r p) = ∑ k : Fin 4, x0 (ix2 r k) * x1 (ix2 k p) := by
  unfold k0_pay1
  rw [shapeCast_self]
  refine (Ideal.matmul_constant_zero_apply dotK (some .fp32) x0 x1 (ix2 r p)).trans ?_
  rw [← Equiv.sum_comp (contrEquiv1 dotK 4 rfl rfl).symm]
  refine Finset.sum_congr rfl fun k _ => ?_
  have hk := contrEquiv1_symm_val dotK 4 rfl rfl k
  have el : dotK.lhsIdx (ix2 r p) ((contrEquiv1 dotK 4 rfl rfl).symm k) = ix2 r k := funext fun a => Fin.ext (by
    match a with
    | ⟨0, _⟩ => exact lhs_0 _ _
    | ⟨1, _⟩ => exact (lhs_1 _ _).trans hk)
  have er : dotK.rhsIdx (ix2 r p) ((contrEquiv1 dotK 4 rfl rfl).symm k) = ix2 k p := funext fun a => Fin.ext (by
    match a with
    | ⟨0, _⟩ => exact (rhs_0 _ _).trans hk
    | ⟨1, _⟩ => exact rhs_1 _ _)
  rw [el, er]

/-! ## The permuted, transposed matrix the region finds -/

/-- The literal (0, 2, 3, 1) as the program holds it. -/
abbrev colLit : IVec S4 32 := fun i => lit0 (S4.rowMajor i)

/-- The column start indices: the literal (the shift by 4 is selected by a constant false), as a column [4, 1]. -/
def colIdx : IVec S4x1 32 :=
  broadcastInDim S4x1 ![0] bcast_S4_S4x1_0
    (select (constantI S4 1 0#1) (addi colLit (broadcastInDim S4 ![] bcast_S_S4 (constantI S_ 32 4#32))) colLit)

/-- Start index k of the column gather, read signed and clamped into [0, 3], is σ⁻¹ k. -/
theorem colIdx_val (k : Fin 4) :
    (⟨min (colIdx (ix2 k 0)).toInt.toNat (4 - 1), by omega⟩ : Fin 4) = colK k := by
  fin_cases k <;> rfl

/-- The [4, 32] operand of the product: columns of matrix gathered by σ⁻¹, transposed. -/
def matT (matrix : FVec Ideal S32x4 .f32) : FVec Ideal S4x32 .f32 :=
  transpose S4x32 [1, 0] (Host.gather gather_S32x4_S4x1_S32x4_0_1_n_n_1_1_321 matrix colIdx) transposes_S32x4_S4x32_1_0

/-- Its entry (k, p) is matrix[p, σ⁻¹ k]. -/
theorem matT_apply (matrix : FVec Ideal S32x4 .f32) (k : Fin 4) (p : Fin 32) :
    matT matrix (ix2 k p) = matrix (ix2 p (colK k)) := by
  unfold matT
  refine (transpose_apply [1, 0] _ transposes_S32x4_S4x32_1_0 (ix2 k p) (ix2 p k) (fun b => by
    match b with
    | ⟨0, _⟩ => rfl
    | ⟨1, _⟩ => rfl)).trans ?_
  refine (colGather_apply (A := 32) (K := 4) (K' := 4) (by decide)
    gather_S32x4_S4x1_S32x4_0_1_n_n_1_1_321_wf matrix colIdx p k).trans ?_
  rw [colIdx_val k]

variable (m : (ℓ : Loc nD τ sig) → Buf (Elt Ideal) ℓ) (ρ : Dev nD → PrngReg)

/-- The host operations before the region leave that array in the product's second operand. -/
theorem V_main_v5 (c : Dev nD) :
    (V m c main_v5 : S4x32.Idx → EReal) = matT (m ((c.tc : Thread nD τ).loc main_arg3)) := by
  show StableHlo.after hostOps0 (fun b => m (c, b)) (Proc.devRef .tc main_v5) = _
  after_results
  rfl

/-! ## The table after the region -/

/-- Entry (g, p) of the projected table. -/
def tableAt (field : FVec Ideal S100000x4 .f32) (matrix : FVec Ideal S32x4 .f32) (g : Fin 100000) (p : Fin 32) : EReal :=
  ∑ k : Fin 4, field (ix2 g k) * matrix (ix2 p (colK k))

/-- The projected table: every row of field against the permuted matrix. -/
def table (field : FVec Ideal S100000x4 .f32) (matrix : FVec Ideal S32x4 .f32) : FVec Ideal S100000x32 .f32 :=
  fun i => tableAt field matrix (i 0) (i 1)

theorem hz : (![0, 0] : Fin 2 → Nat) = fun _ => 0 := funext fun a => by fin_cases a <;> rfl

/-- The printed index maps over the 20 grid points: the field block and the table block move together along the
    rows, every other block index is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks of the table is some point's. -/
theorem idx_onto : ∀ q : Fin 20, ∃ t : Fin cfg0.N, win0_2.index t = ![q.val, 0] :=
  (by decide +kernel : ∀ q : Fin 20, ∃ t : Fin grid0.N, win0_2.index t = ![q.val, 0])

/-- Where entry (r, p) of point t's output block sits in the table: row (block index) · 5000 + r, column p. -/
theorem emb2_eq (t : Fin cfg0.N) (r : Fin 5000) (p : Fin 32) :
    ∃ g : Fin 100000, g.val = win0_2.index t (0 : Fin 2) * 5000 + r.val
      ∧ ((cfg0.win 2).blk t).view.emb (ix2 r p) = ix2 g p := by
  obtain ⟨e0, e1, e2, e3, e4, e5⟩ := idx_facts t
  have hr : r.val < 5000 := r.isLt
  refine ⟨⟨win0_2.index t (0 : Fin 2) * 5000 + r.val, by omega⟩, rfl, ?_⟩
  funext a; apply Fin.ext
  match a with
  | ⟨0, _⟩ => show win0_2.index t (0 : Fin 2) * 5000 + 1 * r.val = win0_2.index t (0 : Fin 2) * 5000 + r.val; omega
  | ⟨1, _⟩ => show win0_2.index t (1 : Fin 2) * 32 + 1 * p.val = p.val; omega

/-- Point t's field block at (r, k) is field at the same row of the table block, column k. -/
theorem read0 (c : Dev nD) (t : Fin cfg0.N) (r : Fin 5000) (k : Fin 4) (g : Fin 100000)
    (hg : g.val = win0_2.index t (0 : Fin 2) * 5000 + r.val) :
    iblk m c 0 t (ix2 r k) = m ((c.tc : Thread nD τ).loc main_arg2) (ix2 g k) := by
  obtain ⟨e0, e1, e2, e3, e4, e5⟩ := idx_facts t
  show V m c main_arg2 (((cfg0.win 0).blk t).view.emb (ix2 r k)) = _
  rw [V_main_arg2]
  refine congrArg _ (funext fun a => Fin.ext ?_)
  match a with
  | ⟨0, _⟩ => show win0_0.index t (0 : Fin 2) * 5000 + 1 * r.val = g.val; omega
  | ⟨1, _⟩ => show win0_0.index t (1 : Fin 2) * 4 + 1 * k.val = k.val; omega

/-- Point t's second block is the whole permuted, transposed matrix. -/
theorem read1 (c : Dev nD) (t : Fin cfg0.N) (k : Fin 4) (p : Fin 32) :
    iblk m c 1 t (ix2 k p) = m ((c.tc : Thread nD τ).loc main_arg3) (ix2 p (colK k)) := by
  obtain ⟨e0, e1, e2, e3, e4, e5⟩ := idx_facts t
  show V m c main_v5 (((cfg0.win 1).blk t).view.emb (ix2 k p)) = _
  rw [V_main_v5]
  refine Eq.trans (congrArg _ (funext fun a => Fin.ext ?_)) (matT_apply _ k p)
  match a with
  | ⟨0, _⟩ => show win0_1.index t (0 : Fin 2) * 4 + 1 * k.val = k.val; omega
  | ⟨1, _⟩ => show win0_1.index t (1 : Fin 2) * 32 + 1 * p.val = p.val; omega

/-- What point t writes back is block t of the table. -/
theorem flushed_eq (c : Dev nD) (t : Fin cfg0.N) :
    (dats m 0 c).flushed 2 t = ((cfg0.win 2).blk t).view.read (Elt Ideal)
      (table (m ((c.tc : Thread nD τ).loc main_arg2)) (m ((c.tc : Thread nD τ).loc main_arg3))) := by
  show (cfg0.win 2).cut (grid0.coords t) ((dats m 0 c).after 2 t) = _
  rw [after0_2]
  unfold out0_2
  rw [View.canon_unit_zero hz]
  simp only [View.ld_unit_zero (S := S5000x4) hz, View.ld_unit_zero (S := S4x32) hz]
  funext j
  obtain ⟨r, p, rfl⟩ : ∃ (r : Fin 5000) (p : Fin 32), j = ix2 r p := ⟨j 0, j 1, eq_ix2 j⟩
  refine (pay_apply (iblk m c 0 t) (iblk m c 1 t) r p).trans ?_
  obtain ⟨g, hg, hemb⟩ := emb2_eq t r p
  show _ = table _ _ (((cfg0.win 2).blk t).view.emb (ix2 r p))
  rw [hemb]
  show _ = tableAt _ _ g p
  unfold tableAt
  exact Finset.sum_congr rfl fun k _ => congrArg₂ (· * ·) (read0 m c t r k g hg) (read1 m c t k p)

/-- An entry of the table is in point t's block iff each coordinate is in the block's range. -/
theorem mem_blk (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v6).slice (win0_2.rect t)).set ↔ _
  rw [View.set_slice_whole, Rect.mem_set_unit]
  exact Iff.rfl

/-- The 20 blocks cover the table: entry (g, p) is in the block of point g / 5000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The table after the region. -/
theorem final (c : Dev nD) :
    (dats m 0 c).arrAt 2 cfg0.N
      = table (m ((c.tc : Thread nD τ).loc main_arg2)) (m ((c.tc : Thread nD τ).loc main_arg3)) :=
  (dats m 0 c).arrAt_eq_of_cover 2 _ (fun t _ => flushed_eq m c t) cover

/-! ## The rows gathered after the region -/

/-- The row start indices, as the program computes them from batch. -/
def rowIdx (batch : IVec S2000000 32) : IVec S2000000x1 32 :=
  broadcastInDim S2000000x1 ![0] bcast_S2000000_S2000000x1_0
    (select (cmpi .slt batch (broadcastInDim S2000000 ![] bcast_S_S2000000 (constantI S_ 32 0#32)))
      (addi batch (broadcastInDim S2000000 ![] bcast_S_S2000000 (constantI S_ 32 100000#32))) batch)

/-- They are the specification's start indices. -/
theorem rowIdx_eq (batch : IVec S2000000 32) : rowIdx batch = startIdx batch := rfl

/-- Gathering the table's rows gives the specification: entry (n, p) is the table's entry (row n, p), and the
    four-term sum re-indexed by σ is the specification's. -/
theorem gathered_eq (batch : IVec S2000000 32) (field : FVec Ideal S100000x4 .f32) (matrix : FVec Ideal S32x4 .f32) :
    Host.gather gather_S100000x32_S2000000x1_S2000000x32_1_0_n_n_0_1_132 (table field matrix) (rowIdx batch)
      = proj (startIdx batch) field matrix := by
  funext j
  obtain ⟨n, p, rfl⟩ : ∃ (n : Fin 2000000) (p : Fin 32), j = ix2 n p := ⟨j 0, j 1, eq_ix2 j⟩
  refine (rowGather_apply (N := 100000) (C := 32) (R := 2000000) (by decide)
    gather_S100000x32_S2000000x1_S2000000x32_1_0_n_n_0_1_132_wf (table field matrix) (rowIdx batch) n p).trans ?_
  exact sum_reindex (fun k => field (ix2 (row (startIdx batch) n) k)) (fun k => matrix (ix2 p k))

/-- The host operations after the region leave the gathered rows in the result buffer. -/
theorem tail_eq (c : Dev nD) :
    Pipeline.afterTail₀ cfgs (dats m) 0 (V0 m) [hostOps1] c main_v13
      = Host.gather gather_S100000x32_S2000000x1_S2000000x32_1_0_n_n_0_1_132
          (table (m ((c.tc : Thread nD τ).loc main_arg2)) (m ((c.tc : Thread nD τ).loc main_arg3)))
          (rowIdx (m ((c.tc : Thread nD τ).loc main_arg0))) := by
  have hv6 : Pipeline.withArrays (cfgs 0).spec c (V0 m c) (fun w => (dats m 0 c).arrAt w (cfgs 0).N) (Proc.devRef .tc main_v6)
      = table (m ((c.tc : Thread nD τ).loc main_arg2)) (m ((c.tc : Thread nD τ).loc main_arg3)) :=
    (Pipeline.withArrays_arr spec0 launch0.win.arr_inj c (V0 m c) (fun w => (dats m 0 c).arrAt w cfg0.N) 2).trans (final m c)
  have ha0 : Pipeline.withArrays (cfgs 0).spec c (V0 m c) (fun w => (dats m 0 c).arrAt w (cfgs 0).N) (Proc.devRef .tc main_arg0)
      = m ((c.tc : Thread nD τ).loc main_arg0) :=
    (Pipeline.withArrays_of_ne spec0 c (V0 m c) (fun w => (dats m 0 c).arrAt w cfg0.N) main_arg0
      (by exact (by decide : ∀ w, Pipeline.arrRef spec0 w ≠ main_arg0))).trans (V_main_arg0 m c)
  unfold Pipeline.afterTail₀
  show StableHlo.after hostOps1 _ (Proc.devRef .tc main_v13) = _
  after_results
  rw [hv6, ha0]
  rfl

end Cert.KernelIdeal.KValue

end
-- ==== Proof.KRun.lean ====
/-
  The kernel's run, read back.

  The generated frame run ends with the table at what the 20 points wrote and every other buffer at what the host
  operations after the region leave. The result buffer is written by the last of those operations, the row gather
  of the table, so it ends at the specification of the arguments; the argument buffers end as launched.
-/
import proofs.«136675_j6373731467891_2_alg».proof.Proof.KValue

noncomputable section

namespace Cert.KernelIdeal.KRun

open Cert.KernelIdeal Cert.KernelIdeal.Gen Idealize.ShloMosaic Idealize.ShloMosaic.TcCoe Idealize.SL.Sem
open Cert.TableProj Cert.KernelIdeal.KValue

variable (m : (ℓ : Loc nD τ sig) → Buf (Elt Ideal) ℓ) (ρ : Dev nD → PrngReg)

/-- Every weakly fair execution of the idealized kernel program ends with the result buffer at the specification of
    the arguments and the four argument buffers as launched. -/
theorem run : θ_run defs (onTc (τ := τ) (main (F := Ideal))) ⟨m, fun _ => 0, ρ⟩ fun r => ∀ c : Dev nD,
      r.2.mem ((c.tc : Thread nD τ).loc main_v13)
        = proj (startIdx (m ((c.tc : Thread nD τ).loc main_arg0))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans
        ((tail_eq m c).trans (gathered_eq _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.KernelIdeal.KRun

end
-- ==== Proof.RefValue.lean ====
/-
  The reference's result, entry by entry.

  The reference gathers rows of field by the start indices, gathers the columns (0, 3, 1, 2) of that [2000000, 4]
  array, and contracts the result with matrix over the four columns. Read at entry (n, p): the contraction is the
  sum over k < 4 of the gathered array at (n, k) times matrix at (p, k); the column gather reads column σ k of the
  row gather; the row gather reads row (row n) of field. That is the specification's entry, term by term.
-/
import proofs.«136675_j6373731467891_2_alg».proof.Proof.Gen.ReferenceIdeal
import proofs.«136675_j6373731467891_2_alg».proof.Proof.Spec

noncomputable section

open scoped BigOperators

namespace Cert.ReferenceIdeal.RefValue

open Cert.ReferenceIdeal Cert.ReferenceIdeal.Gen Idealize.ShloMosaic Idealize.ShloMosaic.ValueIdx Cert.TableProj

variable {F : FTy → Type} [FloatOps F]

/-! ## The reference's operations composed -/

/-- The literal (0, 3, 1, 2) as the program holds it. -/
abbrev colLit : IVec S4 32 := fun i => lit0 (S4.rowMajor i)

/-- The column start indices: the literal, a negative entry shifted up by 4 (none is), as a column [4, 1]. -/
def colIdx : IVec S4x1 32 :=
  broadcastInDim S4x1 ![0] bcast_S4_S4x1_0
    (select (cmpi .slt colLit (broadcastInDim S4 ![] bcast_S_S4 (constantI S_ 32 0#32)))
      (addi colLit (broadcastInDim S4 ![] bcast_S_S4 (constantI S_ 32 4#32))) colLit)

/-- The row start indices, as the program computes them from batch. -/
def rowIdx (batch : IVec S2000000 32) : IVec S2000000x1 32 :=
  broadcastInDim S2000000x1 ![0] bcast_S2000000_S2000000x1_0
    (select (cmpi .slt batch (broadcastInDim S2000000 ![] bcast_S_S2000000 (constantI S_ 32 0#32)))
      (addi batch (broadcastInDim S2000000 ![] bcast_S_S2000000 (constantI S_ 32 100000#32))) batch)

/-- They are the specification's start indices. -/
theorem rowIdx_eq (batch : IVec S2000000 32) : rowIdx batch = startIdx batch := rfl

/-- The rows of field the start indices name. -/
def rows (batch : IVec S2000000 32) (field : FVec F S100000x4 .f32) : FVec F S2000000x4 .f32 :=
  Host.gather gather_S100000x4_S2000000x1_S2000000x4_1_0_n_n_0_1_14 field (rowIdx batch)

/-- The reference's result as one term of its arguments: rows gathered, columns permuted, contracted with matrix. -/
def refTerm (batch : IVec S2000000 32) (field : FVec F S100000x4 .f32) (matrix : FVec F S32x4 .f32) :
    FVec F S2000000x32 .f32 :=
  Host.dotGeneral dot_S2000000x4_S32x4_S2000000x32_1_1_0_0_n_n none
    (Host.gather gather_S2000000x4_S4x1_S2000000x4_0_1_n_n_1_1_20000001 (rows batch field) colIdx) matrix

/-! ## The contraction's index maps, coordinate by coordinate -/

abbrev dotR : DotDims S2000000x4 S32x4 S2000000x32 := dot_S2000000x4_S32x4_S2000000x32_1_1_0_0_n_n

theorem lhs_0 (i : S2000000x32.Idx) (q : dotR.contr.Idx) : (dotR.lhsIdx i q 0).val = (i 0).val := by
  unfold DotDims.lhsIdx
  rw [dif_neg (show ¬(0 : Fin S2000000x4.rank) ∈ dotR.lhsBatch by decide),
    dif_pos (show (0 : Fin S2000000x4.rank) ∈ dotR.lhsNonContracting by decide)]
  rfl
theorem lhs_1 (i : S2000000x32.Idx) (q : dotR.contr.Idx) : (dotR.lhsIdx i q 1).val = (q ⟨0, by decide⟩).val :=
  dotR.lhsIdx_val_of_single rfl i q
theorem rhs_0 (i : S2000000x32.Idx) (q : dotR.contr.Idx) : (dotR.rhsIdx i q 0).val = (i 1).val := by
  unfold DotDims.rhsIdx
  rw [dif_neg (show ¬(0 : Fin S32x4.rank) ∈ dotR.rhsBatch by decide),
    dif_pos (show (0 : Fin S32x4.rank) ∈ dotR.rhsNonContracting by decide)]
  rfl
theorem rhs_1 (i : S2000000x32.Idx) (q : dotR.contr.Idx) : (dotR.rhsIdx i q 1).val = (q ⟨0, by decide⟩).val :=
  dotR.rhsIdx_val_of_single rfl i q

/-! ## The column table -/

/-- Start index k of the column gather, read signed and clamped into [0, 3], is σ k. -/
theorem colIdx_val (k : Fin 4) :
    (⟨min (colIdx (ix2 k 0)).toInt.toNat (4 - 1), by omega⟩ : Fin 4) = colR k := by
  fin_cases k <;> rfl

/-! ## The result at an entry -/

/-- Entry (n, p) of the reference's term, at the ideal values, is the specification's. -/
theorem refTerm_apply (batch : IVec S2000000 32) (field : FVec Ideal S100000x4 .f32) (matrix : FVec Ideal S32x4 .f32)
    (n : Fin 2000000) (p : Fin 32) :
    refTerm batch field matrix (ix2 n p) = projAt (startIdx batch) field matrix n p := by
  unfold refTerm projAt
  simp only [Host.dotGeneral]
  rw [Ideal.dotGeneral_apply, ← Equiv.sum_comp (contrEquiv1 dotR 4 rfl rfl).symm]
  refine Finset.sum_congr rfl fun k _ => ?_
  have hk := contrEquiv1_symm_val dotR 4 rfl rfl k
  have el : dotR.lhsIdx (ix2 n p) ((contrEquiv1 dotR 4 rfl rfl).symm k) = ix2 n k := funext fun a => Fin.ext (by
    match a with
    | ⟨0, _⟩ => exact lhs_0 _ _
    | ⟨1, _⟩ => exact (lhs_1 _ _).trans hk)
  have er : dotR.rhsIdx (ix2 n p) ((contrEquiv1 dotR 4 rfl rfl).symm k) = ix2 p k := funext fun a => Fin.ext (by
    match a with
    | ⟨0, _⟩ => exact rhs_0 _ _
    | ⟨1, _⟩ => exact (rhs_1 _ _).trans hk)
  rw [el, er]
  refine congrArg (· * matrix (ix2 p k)) ?_
  refine (colGather_apply (A := 2000000) (K := 4) (K' := 4) (by decide)
    gather_S2000000x4_S4x1_S2000000x4_0_1_n_n_1_1_20000001_wf (rows batch field) colIdx n k).trans ?_
  rw [colIdx_val k]
  unfold rows
  refine (rowGather_apply (N := 100000) (C := 4) (R := 2000000) (by decide)
    gather_S100000x4_S2000000x1_S2000000x4_1_0_n_n_0_1_14_wf field (rowIdx batch) n (colR k)).trans ?_
  rfl

/-- The reference's term, at the ideal values, is the specification. -/
theorem refTerm_eq (batch : IVec S2000000 32) (field : FVec Ideal S100000x4 .f32) (matrix : FVec Ideal S32x4 .f32) :
    refTerm batch field matrix = proj (startIdx batch) field matrix := by
  funext j
  obtain ⟨n, p, rfl⟩ : ∃ (n : Fin 2000000) (p : Fin 32), j = ix2 n p := ⟨j 0, j 1, eq_ix2 j⟩
  exact refTerm_apply batch field matrix n p

end Cert.ReferenceIdeal.RefValue

end
-- ==== Proof.RefRun.lean ====
/-
  The reference's run, read back.

  The reference is a straight line of 22 host operations. Listed in order, they determine what every buffer holds
  when the program ends: the fold of the operations' results over the launch contents. Its result buffer then holds
  the composed term of the arguments (rows gathered, columns permuted, contracted with matrix), which at the ideal
  values is the specification; the argument buffers are written by no operation and end as launched.
-/
import proofs.«136675_j6373731467891_2_alg».proof.Proof.RefValue
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.TableProj Cert.ReferenceIdeal.RefValue

variable {F : FTy → Type} [FloatOps F]

/-- The program's 22 operations, in order. -/
abbrev ops : List (HloOp τ sig (Elt F)) :=
  [ nullary main_c (fun i => lit0 (S4.rowMajor i)),
    nullary main_c_0 (constantI S_ 32 0#32),
    unary main_c_0 main_v0 (broadcastInDim S2000000 ![] bcast_S_S2000000 : (⟨S_, .i32⟩ : BufTy).Contents (Elt F) → (⟨S2000000, .i32⟩ : BufTy).Contents (Elt F)),
    binary main_arg0 main_v0 main_v1 (cmpi .slt : (⟨S2000000, .i32⟩ : BufTy).Contents (Elt F) → (⟨S2000000, .i32⟩ : BufTy).Contents (Elt F) → (⟨S2000000, .i1⟩ : BufTy).Contents (Elt F)),
    nullary main_c_1 (constantI S_ 32 100000#32),
    unary main_c_1 main_v2 (broadcastInDim S2000000 ![] bcast_S_S2000000 : (⟨S_, .i32⟩ : BufTy).Contents (Elt F) → (⟨S2000000, .i32⟩ : BufTy).Contents (Elt F)),
    binary main_arg0 main_v2 main_v3 (addi : (⟨S2000000, .i32⟩ : BufTy).Contents (Elt F) → (⟨S2000000, .i32⟩ : BufTy).Contents (Elt F) → (⟨S2000000, .i32⟩ : BufTy).Contents (Elt F)),
    ternary main_v1 main_v3 main_arg0 main_v4 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v4 main_v5 (broadcastInDim S2000000x1 ![0] bcast_S2000000_S2000000x1_0 : (⟨S2000000, .i32⟩ : BufTy).Contents (Elt F) → (⟨S2000000x1, .i32⟩ : BufTy).Contents (Elt F)),
    binary main_arg2 main_v5 main_v6 ((fun x i => Host.gather gather_S100000x4_S2000000x1_S2000000x4_1_0_n_n_0_1_14 x i) : (⟨S100000x4, .f32⟩ : BufTy).Contents (Elt F) → (⟨S2000000x1, .i32⟩ : BufTy).Contents (Elt F) → (⟨S2000000x4, .f32⟩ : BufTy).Contents (Elt F)),
    unary main_v6 main_v7 ((extractStridedSlice S2000000x3 ![0, 1] · slices_S2000000x4_S2000000x3_0_1) : (⟨S2000000x4, .f32⟩ : BufTy).Contents (Elt F) → (⟨S2000000x3, .f32⟩ : BufTy).Contents (Elt F)),
    binary main_arg1 main_v7 main_v8 ((fun l r => Host.dotGeneral dot_S2000000x3_S2000000x3_S2000000_1_1_n_n_0_0 none l r) : (⟨S2000000x3, .f32⟩ : BufTy).Contents (Elt F) → (⟨S2000000x3, .f32⟩ : BufTy).Contents (Elt F) → (⟨S2000000, .f32⟩ : BufTy).Contents (Elt F)),
    nullary main_c_2 (constantI S_ 32 0#32),
    unary main_c_2 main_v9 (broadcastInDim S4 ![] bcast_S_S4 : (⟨S_, .i32⟩ : BufTy).Contents (Elt F) → (⟨S4, .i32⟩ : BufTy).Contents (Elt F)),
    binary main_c main_v9 main_v10 (cmpi .slt : (⟨S4, .i32⟩ : BufTy).Contents (Elt F) → (⟨S4, .i32⟩ : BufTy).Contents (Elt F) → (⟨S4, .i1⟩ : BufTy).Contents (Elt F)),
    nullary main_c_3 (constantI S_ 32 4#32),
    unary main_c_3 main_v11 (broadcastInDim S4 ![] bcast_S_S4 : (⟨S_, .i32⟩ : BufTy).Contents (Elt F) → (⟨S4, .i32⟩ : BufTy).Contents (Elt F)),
    binary main_c main_v11 main_v12 (addi : (⟨S4, .i32⟩ : BufTy).Contents (Elt F) → (⟨S4, .i32⟩ : BufTy).Contents (Elt F) → (⟨S4, .i32⟩ : BufTy).Contents (Elt F)),
    ternary main_v10 main_v12 main_c main_v13 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    unary main_v13 main_v14 (broadcastInDim S4x1 ![0] bcast_S4_S4x1_0 : (⟨S4, .i32⟩ : BufTy).Contents (Elt F) → (⟨S4x1, .i32⟩ : BufTy).Contents (Elt F)),
    binary main_v6 main_v14 main_v15 ((fun x i => Host.gather gather_S2000000x4_S4x1_S2000000x4_0_1_n_n_1_1_20000001 x i) : (⟨S2000000x4, .f32⟩ : BufTy).Contents (Elt F) → (⟨S4x1, .i32⟩ : BufTy).Contents (Elt F) → (⟨S2000000x4, .f32⟩ : BufTy).Contents (Elt F)),
    binary main_v15 main_arg3 main_v16 ((fun l r => Host.dotGeneral dot_S2000000x4_S32x4_S2000000x32_1_1_0_0_n_n none l r) : (⟨S2000000x4, .f32⟩ : BufTy).Contents (Elt F) → (⟨S32x4, .f32⟩ : BufTy).Contents (Elt F) → (⟨S2000000x32, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- What the result buffer holds after the 22 operations: the composed term of the arguments. -/
theorem after_v16 (m : (ℓ : Loc nD τ sig) → Buf (Elt F) ℓ) (c : Dev nD) :
    after (ops (F := F)) (launchContents m c) (Proc.devRef .tc main_v16)
      = refTerm (m ((c.tc : Thread nD τ).loc main_arg0)) (m ((c.tc : Thread nD τ).loc main_arg2)) (m ((c.tc : Thread nD τ).loc main_arg3)) := by
  after_results_simp
  rfl

/-- No operation writes an argument buffer: each ends as launched. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp
theorem after_arg2 (m : (ℓ : Loc nD τ sig) → Buf (Elt F) ℓ) (c : Dev nD) :
    after (ops (F := F)) (launchContents m c) (Proc.devRef .tc main_arg2) = m ((c.tc : Thread nD τ).loc main_arg2) := by
  after_results_simp
theorem after_arg3 (m : (ℓ : Loc nD τ sig) → Buf (Elt F) ℓ) (c : Dev nD) :
    after (ops (F := F)) (launchContents m c) (Proc.devRef .tc main_arg3) = m ((c.tc : Thread nD τ).loc main_arg3) := by
  after_results_simp

/-- Every weakly fair execution of the reference ends with the result buffer at the composed term of the arguments
    and the four argument buffers as launched. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
        = refTerm (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v16).trans (after_v16 m c),
      (h c main_arg0).trans (after_arg0 m c),
      (h c main_arg1).trans (after_arg1 m c),
      (h c main_arg2).trans (after_arg2 m c),
      (h c main_arg3).trans (after_arg3 m c)⟩)
    (run_seq scopedRefs_eq scopedSems_eq defs main (fun _ => ops) main_eq (fun _ => ops_sub) m ρ)

/-- At the ideal values the result is the specification of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = proj (startIdx (m ((c.tc : Thread nD τ).loc main_arg0))) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refTerm_eq _ _ _), (h c).2⟩) (run_term (F := Ideal) m ρ)

end Cert.ReferenceIdeal.RefRun

end
-- ==== Proof.lean ====
/-
  Equivalence over the extended reals of a table-side projection followed by a row gather (the kernel) and a row
  gather followed by a per-row projection (the reference).

  Both programs end with the array [2000000, 32] whose entry (n, p) is Σ_{k < 4} field[row n, σ k] · matrix[p, k],
  σ = (0, 3, 1, 2), row n the clamped start index batch[n] (Proof/Spec.lean). The reference's 22 host operations are
  read back in Proof/RefRun.lean and read entry by entry in Proof/RefValue.lean. The kernel's table is read off its
  20 blocks, and its host operations before and after the region entry by entry, in Proof/KValue.lean; its run is
  Proof/KRun.lean. The one law joining the two sides re-indexes a four-term sum by σ; it uses only commutativity and
  associativity of addition, so the precondition (finite inputs) is never opened. The three frame claims are the
  generated frames and the reference's run with its result dropped; the idealized kernel program is the kernel
  program's own text read over the extended reals, no operation rewritten, so the idealization claim is trivial.
-/
import proofs.«136675_j6373731467891_2_alg».proof.Defs
import proofs.«136675_j6373731467891_2_alg».proof.Proof.Gen.Kernel
import proofs.«136675_j6373731467891_2_alg».proof.Proof.Gen.Kernel.Frame
import proofs.«136675_j6373731467891_2_alg».proof.Proof.Gen.KernelIdeal
import proofs.«136675_j6373731467891_2_alg».proof.Proof.Gen.KernelIdeal.Frame
import proofs.«136675_j6373731467891_2_alg».proof.Proof.Gen.ReferenceIdeal
import proofs.«136675_j6373731467891_2_alg».proof.Proof.Gen.Pre_finite_inputs
import proofs.«136675_j6373731467891_2_alg».proof.Proof.KRun
import proofs.«136675_j6373731467891_2_alg».proof.Proof.RefRun
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- From memories agreeing on the arguments both programs end at the specification of those arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
